-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S512x1024 .f32
  ∧ IdealRules.sign_bit.Statement Cert.KernelIdeal.S512x1024 .f32
  ∧ IdealRules.sign_bit.Statement Cert.KernelIdeal.S512x1024 .f32
  ∧ IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048x1024 : Shape := ⟨3, ![4, 2048, 1024]⟩
abbrev S1024x4096 : Shape := ⟨2, ![1024, 4096]⟩
abbrev S1024 : Shape := ⟨1, ![1024]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  reducesTo_S_S_d : S_.ReducesTo [] S_

variable [Facts]

def fn_part1 {F : FTy → Type} [FloatOps F] (main_arg4 : FVec F S_ .f32) (main_arg5 : FVec F S1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S1024 .f32 := Host.absf main_arg5
  let main_cst_8 : FVec F S_ .f32 := constant S_ .f32 0x7F800000#32
  let main_v24 : FVec F S1024 .f32 := broadcastInDim S1024 ![] bcast_S_S1024 main_cst_8
  let main_v25 : IVec S1024 1 := cmpf .olt main_v23 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v22 main_v26
  let main_v28 : FVec F S1024 .f32 := Host.absf main_arg6
  let main_cst_10 : FVec F S_ .f32 := constant S_ .f32 0x7F800000#32
  let main_v29 : FVec F S1024 .f32 := broadcastInDim S1024 ![] bcast_S_S1024 main_cst_10
  let main_v30 : IVec S1024 1 := cmpf .olt main_v28 main_v29
  let main_c_11 : IVec S_ 1 := constantI S_ 1 1#1
  let main_v31 : IVec S_ 1 := (fun x v => Host.reduce IntOp.andi x v reducesTo_S1024_S_d0 h_S_) main_v30 main_c_11
  let main_v32 : IVec S_ 1 := andi main_v27 main_v31
  main_v32

def fn {F : FTy → Type} [FloatOps F] (main_arg0 : FVec F S4x2048x4096 .f32) (main_arg1 : FVec F S4x2048x1024 .f32) (main_arg2 : FVec F S1024x4096 .f32) (main_arg3 : FVec F S1024 .f32) (main_arg4 : FVec F S_ .f32) (main_arg5 : FVec F S1024 .f32) (main_arg6 : FVec F S1024 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S4x2048x4096 : Shape := ⟨3, ![4, 2048, 4096]⟩
abbrev S4x2048x1024 : Shape := ⟨3, ![4, 2048, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S4096x1024 : Shape := ⟨2, ![4096, 1024]⟩
abbrev S1x1024 : Shape := ⟨2, ![1, 1024]⟩
abbrev S8192x4096 : Shape := ⟨2, ![8192, 4096]⟩
abbrev S8192x1024 : Shape := ⟨2, ![8192, 1024]⟩
abbrev S512x4096 : Shape := ⟨2, ![512, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 29
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4x2048x1024, .f32⟩
  | .hbm, ⟨2, _⟩ => ⟨S1024x4096, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S4x2048x1024, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![16], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_off2 (c0_i32 : BitVec 32) : Fin 2 → Nat :=
  let c1024_i32 : BitVec 32 := 1024#32
  let v1 : BitVec 32 := Scalar.muli c0_i32 c1024_i32
  let v2 : BitVec 32 := v1
  let v17 : Index := Scalar.indexCast v2
  let c0_1 : Index := 0#32
  ![v17.toNat, 0]
def k0_mult2 : BitVec 32 :=
  let c1_i32 : BitVec 32 := 1#32
  let c1024_i32_3 : BitVec 32 := 1024#32
  let v22 : BitVec 32 := Scalar.muli c1_i32 c1024_i32_3
  v22
def k0_mult3 : BitVec 32 :=
  let c2_i32 : BitVec 32 := 2#32
  let c1024_i32_10 : BitVec 32 := 1024#32
  let v43 : BitVec 32 := Scalar.muli c2_i32 c1024_i32_10
  v43
def k0_mult4 : BitVec 32 :=
  let c3_i32 : BitVec 32 := 3#32
  let c1024_i32_17 : BitVec 32 := 1024#32
  let v64 : BitVec 32 := Scalar.muli c3_i32 c1024_i32_17
  v64
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  transposes_S1024x4096_S4096x1024_1_0 : S1024x4096.Transposes [1, 0] S4096x1024
  bitsLt_bf16_f32 : FTy.bits .bf16 < FTy.bits .f32
  shapeCasts_S1024_S1x1024 : S1024.ShapeCasts S1x1024
  shapeCasts_S4x2048x4096_S8192x4096 : S4x2048x4096.ShapeCasts S8192x4096
  shapeCasts_S4x2048x1024_S8192x1024 : S4x2048x1024.ShapeCasts S8192x1024
  h_S512x1024 : 0 < S512x1024.numel
  shapeCasts_S512x1024_S512x1024 : S512x1024.ShapeCasts S512x1024
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  reduces_S512x1024_S512 : S512x1024.Reduces [1] S512
  shapeCasts_S512_S512x1 : S512.ShapeCasts S512x1
  broadcasts_S512x1_S512x1024 : S512x1.Broadcasts S512x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  hrank0 : 0 < grid0.rank
  k0_mult1_dvd : 1024 ∣ k0_mult1.toNat
  k0_off1_inb : ∀ (r : Fin 4), ∀ a, (k0_off1 (BitVec.ofNat 32 r.val)) a + S512x1024.size a ≤ S512x4096.size a
  k0_off2_inb : ∀ (r : Fin 4), ∀ a, (k0_off2 (BitVec.ofNat 32 r.val)) a + S1024x1024.size a ≤ S4096x1024.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v16) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4x2048x1024 : Shape := ⟨3, ![4, 2048, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S1x1x1024 : Shape := ⟨3, ![1, 1, 1024]⟩
abbrev S4x2048 : Shape := ⟨2, ![4, 2048]⟩
abbrev S4x2048x1 : Shape := ⟨3, ![4, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x1024, .f32⟩
  | .hbm, ⟨2, _⟩ => ⟨S1024x4096, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x1, .f32⟩
  | .hbm, ⟨52, _⟩ => ⟨S4x2048x1024, .f32⟩
  | .hbm, ⟨53, _⟩ => ⟨S4x2048x1024, .f32⟩
  | .hbm, ⟨54, _⟩ => ⟨S1x1x1024, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x4096_S1024x4096_S4x2048x1024_2_1_01_0_n_n_wf : DotDims.WF S4x2048x4096 S1024x4096 S4x2048x1024 [2] [1] [0, 1] [0] [] []

variable [Facts₀]

def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.Scalar.lean ====
/-
  The scalar laws on the extended reals that join the two programs.

  Both compute, for a row of activations `x`, a clip scalar `c` and a weight row `W`, the sum over `i` of
  (quantised activation at `i`) · (quantised weight at `i`).  One side writes the quantised activation as
  `c · (s + (sign s − s))` with `s = x / c` (a straight-through form around `sign`), and the quantised weight as
  `W + (q − W)`; the other writes `sign x` and carries `|c|` on the weight, `|c| · q`.  For FINITE `x`, `c`, `W` the two
  products agree term by term, the division by zero included (at `c = 0` both are `0`); and a sum over 4096 indices
  is the sum of its four consecutive quarters, in any grouping, because addition of extended reals is commutative
  and associative.
-/
import Idealize.ShloMosaic.PureOps.Ideal
import Idealize.ShloMosaic.PureOps.Ideal.Laws

noncomputable section

open Idealize.ShloMosaic
open scoped BigOperators

namespace Cert.Bridge

/-- Adding back what was subtracted: for a REAL `w` and ANY extended real `q`, `w + (q − w) = q` (at `q = ±∞` both
    sides are `q`). -/
theorem coe_add_sub_cancel (w : ℝ) (q : EReal) : (w : EReal) + (q - (w : EReal)) = q := by
  induction q using EReal.rec with
  | bot => simp
  | top => simp
  | coe r => rw [← EReal.coe_sub, ← EReal.coe_add]; congr 1; ring

/-- For `c ≠ 0`: `c · sign (x / c) = |c| · sign x` on the reals. -/
theorem mul_sign_div (x : ℝ) {c : ℝ} (hc : c ≠ 0) :
    c * ((SignType.sign (x / c) : SignType) : ℝ) = |c| * ((SignType.sign x : SignType) : ℝ) := by
  rcases lt_or_gt_of_ne hc with hc | hc
  · rcases lt_trichotomy x 0 with hx | hx | hx
    · rw [sign_pos (div_pos_of_neg_of_neg hx hc), sign_neg hx, abs_of_neg hc]; simp
    · subst hx; simp
    · rw [sign_neg (div_neg_of_pos_of_neg hx hc), sign_pos hx, abs_of_neg hc]; simp
  · rcases lt_trichotomy x 0 with hx | hx | hx
    · rw [sign_neg (div_neg_of_neg_of_pos hx hc), sign_neg hx, abs_of_pos hc]
    · subst hx; simp
    · rw [sign_pos (div_pos hx hc), sign_pos hx, abs_of_pos hc]

/-- The absolute value as the extended reals take it, `max c (−c)`, of a real. -/
theorem max_neg_coe (c : ℝ) : max (c : EReal) (-(c : EReal)) = ((|c| : ℝ) : EReal) := by
  rw [abs_eq_max_neg, ← EReal.coe_neg]
  exact (EReal.coe_strictMono.monotone.map_max).symm

/-- THE QUANTISED ACTIVATION.  With `s = x / c`, `c · (s + (sign s − s)) = |c| · sign x` for real `x`, `c`: off zero by
    `mul_sign_div`; at `c = 0` the left side is `0 · _ = 0` whatever the quotient by zero is, and the right `|0| · _ = 0`. -/
theorem quant_act (x c : ℝ) :
    (c : EReal) * (Ideal.div x c + (Ideal.sign (Ideal.div x c) - Ideal.div x c))
      = max (c : EReal) (-(c : EReal)) * Ideal.sign (x : EReal) := by
  rw [max_neg_coe, Ideal.sign_coe, ← EReal.coe_mul]
  by_cases hc : c = 0
  · subst hc; simp
  · have hs : Ideal.div (x : EReal) (c : EReal) = ((x / c : ℝ) : EReal) := by
      rw [Ideal.div_coe hc, ← EReal.coe_mul]; congr 1; rw [mul_one_div]
    rw [hs, Ideal.sign_coe, coe_add_sub_cancel, ← EReal.coe_mul, mul_sign_div x hc]

/-- ONE TERM of the contraction: (quantised activation) · (quantised weight) in the straight-through spelling equals
    `sign x · (|c| · q)`, for real `x`, `c`, `w` and any `q`. -/
theorem term_eq (x c w : ℝ) (q : EReal) :
    ((c : EReal) * (Ideal.div x c + (Ideal.sign (Ideal.div x c) - Ideal.div x c))) * ((w : EReal) + (q - (w : EReal)))
      = Ideal.sign (x : EReal) * (max (c : EReal) (-(c : EReal)) * q) := by
  rw [quant_act, coe_add_sub_cancel, mul_comm (max _ _) (Ideal.sign _), mul_assoc]

/-- A sum over 4096 indices is the sum of its four consecutive quarters of 1024, added in order from zero. -/
theorem sum_quarters (f : Fin 4096 → EReal) (g : Fin 4 → Fin 1024 → EReal)
    (h : ∀ (a : Fin 4) (k : Fin 1024), g a k = f ⟨1024 * a.val + k.val, by have := a.isLt; have := k.isLt; omega⟩) :
    ∑ i : Fin 4096, f i = (((0 + ∑ k, g 0 k) + ∑ k, g 1 k) + ∑ k, g 2 k) + ∑ k, g 3 k := by
  have e : ∑ i : Fin 4096, f i = ∑ p : Fin 4 × Fin 1024, g p.1 p.2 := by
    refine (Fintype.sum_equiv (finProdFinEquiv (m := 4) (n := 1024)) (fun p => g p.1 p.2) f (fun p => ?_)).symm
    rw [h]
    congr 1
    apply Fin.ext
    simp [finProdFinEquiv]
    omega
  rw [e, Fintype.sum_prod_type, Fin.sum_univ_four, zero_add]

/-! ## The normalisation of one row -/

/-- The mean of a row of 1024 entries: their sum over the float `1024.0`. -/
def rowMean (r : Fin 1024 → EReal) : EReal := Ideal.div (∑ k, r k) (Ideal.ofBits .f32 0x44800000#32)

/-- A row of 1024 entries, centred at its mean, scaled by the reciprocal square root of its variance plus the float
    epsilon, then by `γ`, then shifted by `β` — every operation the extended reals' own, in this order. -/
def lnRow (r γ β : Fin 1024 → EReal) (h : Fin 1024) : EReal :=
  (r h - rowMean r)
      * Ideal.rsqrt (rowMean (fun k => (r k - rowMean r) * (r k - rowMean r)) + Ideal.ofBits .f32 0x2B8CBCCC#32)
      * γ h
    + β h

end Cert.Bridge

end
-- ==== Proof.Body.lean ====
/-
  What the kernel's body computes from the blocks it is given, read entry by entry on the extended reals.

  The body receives a block `X` of 512 rows of 4096 activations, the whole 4096 × 1024 weight `Wt`, a 512 × 1024 block
  `T` of the residual, and the rows `b`, `γ`, `β`.  It cuts the 4096 columns of `X` (and the 4096 rows of `Wt`) into four
  quarters of 1024; for each quarter it takes the sign of the activations and multiplies by the quarter of `Wt`,
  adding the four products in order from zero; it adds `b` to every row and then `T`; and it normalises each row.
  So entry (p, h) of the result is the row normalisation, at `h`, of the row
      h' ↦ ((((0 + Σₖ sign X(p, k) · Wt(k, h')) + Σₖ sign X(p, 1024 + k) · Wt(1024 + k, h')) + …) + b(h')) + T(p, h').
-/
import proofs.«150808_j39376260170161_2_alg».proof.Proof.Gen.KernelIdeal.Skeleton
import proofs.«150808_j39376260170161_2_alg».proof.Proof.Scalar
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

variable {F : FTy → Type} [FloatOps F]

/-! ## The body's vocabulary: each printed payload is a composition of these -/

/-- The sign of a block of activations, narrowed for the matrix unit. -/
def signed (A : FVec F S512x1024 .f32) : FVec F S512x1024 .bf16 :=
  truncf .bf16 (select (cmpf .ogt (absf (shapeCast S512x1024 A shapeCasts_S512x1024_S512x1024)) (broadcast S512x1024 (Scalar.ofBits .f32 0x00000000#32)))
    (select (cmpf .olt (shapeCast S512x1024 A shapeCasts_S512x1024_S512x1024) (constant S512x1024 .f32 0x00000000#32)) (constant S512x1024 .f32 0xBF800000#32) (constant S512x1024 .f32 0x3F800000#32))
    (shapeCast S512x1024 A shapeCasts_S512x1024_S512x1024)) bitsLt_bf16_f32

/-- One quarter's product: the signs of a 512 × 1024 block of activations times a 1024 × 1024 block of the weight. -/
def quarter (A : FVec F S512x1024 .f32) (B : FVec F S1024x1024 .bf16) : FVec F S512x1024 .f32 :=
  matmul dot_S512x1024_S1024x1024_S512x1024_1_0_0_1_n_n none (signed A) (shapeCast S1024x1024 B shapeCasts_S1024x1024_S1024x1024) (constant S512x1024 .f32 0x00000000#32)

/-- A row of 1024 laid under every one of the 512 rows. -/
def underRows (g : FVec F S1x1024 .f32) : FVec F S512x1024 .f32 :=
  broadcastTo S512x1024 (shapeCast S1x1024 g shapeCasts_S1x1024_S1x1024) broadcasts_S1x1024_S512x1024

/-- A column of 512 laid beside every one of the 1024 columns. -/
def besideCols (v : FVec F S512x1 .f32) : FVec F S512x1024 .f32 := broadcastTo S512x1024 v broadcasts_S512x1_S512x1024

/-- Each row's mean, as a column: the row's sum over the float `1024.0`. -/
def meanCol (v : FVec F S512x1024 .f32) : FVec F S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- The row normalisation of a block. -/
def normalised (r : FVec F S512x1024 .f32) (g be : FVec F S1x1024 .f32) : FVec F S512x1024 .f32 :=
  addf (mulf (mulf (subf r (besideCols (meanCol r)))
      (besideCols (rsqrt (addf (meanCol (mulf (subf r (besideCols (meanCol r))) (subf r (besideCols (meanCol r)))))
        (broadcast S512x1 (Scalar.ofBits .f32 0x2B8CBCCC#32))))))
    (underRows g)) (underRows be)

theorem pay2_eq (A0 : FVec F S512x1024 .f32) (B0 : FVec F S1024x1024 .bf16) (A1 : FVec F S512x1024 .f32) (B1 : FVec F S1024x1024 .bf16) :
    k0_pay2 A0 B0 A1 B1 = addf (addf (broadcast S512x1024 (Scalar.ofBits .f32 0x00000000#32)) (quarter A0 B0)) (quarter A1 B1) := rfl

theorem pay3_eq (acc A2 : FVec F S512x1024 .f32) (B2 : FVec F S1024x1024 .bf16) (A3 : FVec F S512x1024 .f32) (B3 : FVec F S1024x1024 .bf16)
    (b : FVec F S1x1024 .f32) (T : FVec F S512x1024 .f32) :
    k0_pay3 acc A2 B2 A3 B3 b T
      = addf (addf (addf (addf acc (quarter A2 B2)) (quarter A3 B3)) (underRows b)) (shapeCast S512x1024 T shapeCasts_S512x1024_S512x1024) := rfl

theorem pay1_eq (r : FVec F S512x1024 .f32) (g be : FVec F S1x1024 .f32) : k0_pay1 r g be = normalised r g be := rfl

/-! ## Read at an entry, on the extended reals -/

/-- The narrowed sign of a block, at an entry, is the sign of that entry (the narrowing changes nothing here). -/
theorem signed_apply (A : FVec Ideal S512x1024 .f32) (j : S512x1024.Idx) : signed A j = Ideal.sign (A j) := by
  unfold signed
  rw [shapeCast_self]
  exact Ideal.jnp_sign_eq_sign_f32 (A j)

/-! The product's operand indices at output entry (p, h) and contraction index k are (p, k) and (k, h). -/

theorem lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- One quarter's product at entry (p, h): the sum over the quarter's 1024 indices of sign A(p, k) · B(k, h). -/
theorem quarter_apply (A : FVec Ideal S512x1024 .f32) (B : FVec Ideal S1024x1024 .bf16) (p : Fin 512) (h : Fin 1024) :
    quarter A B (ix2 p h) = ∑ k : Fin 1024, Ideal.sign (A (ix2 p k)) * B (ix2 k h) := by
  unfold quarter
  rw [shapeCast_self]
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p h) ((contrEquiv1 dot_S512x1024_S1024x1024_S512x1024_1_0_0_1_n_n 1024 rfl rfl).symm k) = ix2 p k := funext fun a => Fin.ext (by
    match a with
    | ⟨0, _⟩ => exact lhs0 _ _
    | ⟨1, _⟩ => exact (lhs1 _ _).trans hk)
  have er : dot_S512x1024_S1024x1024_S512x1024_1_0_0_1_n_n.rhsIdx (ix2 p h) ((contrEquiv1 dot_S512x1024_S1024x1024_S512x1024_1_0_0_1_n_n 1024 rfl rfl).symm k) = ix2 k h := funext fun a => Fin.ext (by
    match a with
    | ⟨0, _⟩ => exact (rhs0 _ _).trans hk
    | ⟨1, _⟩ => exact rhs1 _ _)
  rw [el, er, signed_apply]

/-- A row laid under every row reads, at (p, h), the row at h. -/
theorem underRows_apply (g : FVec Ideal S1x1024 .f32) (p : Fin 512) (h : Fin 1024) :
    underRows g (ix2 p h) = g (ix2 (0 : Fin 1) h) := by
  unfold underRows
  rw [shapeCast_self]
  exact broadcastTo_1b_ab_apply g broadcasts_S1x1024_S512x1024 p h

/-- A column laid beside every column reads, at (p, h), the column at p. -/
theorem besideCols_apply (v : FVec Ideal S512x1 .f32) (p : Fin 512) (h : Fin 1024) :
    besideCols v (ix2 p h) = v (ix2 p (0 : Fin 1)) := by
  unfold besideCols
  refine broadcastTo_apply v broadcasts_S512x1_S512x1024 (ix2 p h) (ix2 p (0 : Fin 1)) fun ax => ?_
  match ax with
  | ⟨0, _⟩ => rfl
  | ⟨1, _⟩ => rfl

/-- The mean column at row p is the mean of row p. -/
theorem meanCol_apply (v : FVec Ideal S512x1024 .f32) (p : Fin 512) :
    meanCol v (ix2 p (0 : Fin 1)) = Cert.Bridge.rowMean (fun k => v (ix2 p k)) := by
  unfold meanCol Cert.Bridge.rowMean
  rw [divf_apply]
  congr 1
  rw [shapeCast_apply _ shapeCasts_S512_S512x1 (ix2 p (0 : Fin 1)) (ix1 p)
    (by rw [Shape.rowMajor_val_one, Shape.rowMajor_val_two]; simp)]
  refine (Ideal.multiReduction_add_single v 0x00000000#32 reduces_S512x1024_S512 (.inl rfl) rfl (ix1 p)).trans ?_
  refine Finset.sum_congr rfl fun k _ => congrArg v ?_
  funext a
  apply Fin.ext
  match a with
  | ⟨0, _⟩ => rfl
  | ⟨1, _⟩ => rfl

/-- The normalised block at (p, h) is the row normalisation of row p, at h. -/
theorem normalised_apply (r : FVec Ideal S512x1024 .f32) (g be : FVec Ideal S1x1024 .f32) (p : Fin 512) (h : Fin 1024) :
    normalised r g be (ix2 p h)
      = Cert.Bridge.lnRow (fun k => r (ix2 p k)) (fun k => g (ix2 (0 : Fin 1) k)) (fun k => be (ix2 (0 : Fin 1) k)) h := by
  have hc : ∀ k : Fin 1024, subf r (besideCols (meanCol r)) (ix2 p k) = r (ix2 p k) - Cert.Bridge.rowMean (fun k => r (ix2 p k)) :=
    fun k => by rw [subf_apply, besideCols_apply, meanCol_apply]
  have hv : rsqrt (addf (meanCol (mulf (subf r (besideCols (meanCol r))) (subf r (besideCols (meanCol r)))))
        (broadcast S512x1 (Scalar.ofBits .f32 0x2B8CBCCC#32))) (ix2 p (0 : Fin 1))
      = Ideal.rsqrt (Cert.Bridge.rowMean (fun k => (r (ix2 p k) - Cert.Bridge.rowMean (fun k => r (ix2 p k))) * (r (ix2 p k) - Cert.Bridge.rowMean (fun k => r (ix2 p k))))
          + Ideal.ofBits .f32 0x2B8CBCCC#32) := by
    show Ideal.rsqrt (meanCol (mulf (subf r (besideCols (meanCol r))) (subf r (besideCols (meanCol r)))) (ix2 p (0 : Fin 1)) + Ideal.ofBits .f32 0x2B8CBCCC#32) = _
    rw [meanCol_apply]
    congr 3
    funext k
    rw [mulf_apply, hc]
  unfold normalised Cert.Bridge.lnRow
  rw [addf_apply, mulf_apply, mulf_apply, hc, besideCols_apply, hv, underRows_apply, underRows_apply]

/-! ## The body's whole value -/

/-- What the body stores, as a function of the blocks it is given: the normalisation of (four quarters' products from
    zero, plus the bias row, plus the residual block), the quarters being columns 0…, 1024…, 2048…, 3072… of `X` and the same
    rows of `Wt`. -/
def whole (X : Vec F S512x4096 .f32) (Wt : Vec F S4096x1024 .bf16) (T : Vec F S512x1024 .f32) (b g be : Vec F S1x1024 .f32) :
    FVec F S512x1024 .f32 :=
  k0_pay1 (k0_pay3 (k0_pay2 (View.ld X (Rect.unit (s := S512x4096) ![0, 0] S512x1024.size (Rect.inb₂ (by decide) (by decide)))) (View.ld Wt (Rect.unit (s := S4096x1024) ![0, 0] S1024x1024.size (Rect.inb₂ (by decide) (by decide))))
      (View.ld X (Rect.unit (s := S512x4096) ![0, 1024] S512x1024.size (Rect.inb₂ (by decide) (by decide)))) (View.ld Wt (Rect.unit (s := S4096x1024) ![1024, 0] S1024x1024.size (Rect.inb₂ (by decide) (by decide)))))
    (View.ld X (Rect.unit (s := S512x4096) ![0, 2048] S512x1024.size (Rect.inb₂ (by decide) (by decide)))) (View.ld Wt (Rect.unit (s := S4096x1024) ![2048, 0] S1024x1024.size (Rect.inb₂ (by decide) (by decide))))
    (View.ld X (Rect.unit (s := S512x4096) ![0, 3072] S512x1024.size (Rect.inb₂ (by decide) (by decide)))) (View.ld Wt (Rect.unit (s := S4096x1024) ![3072, 0] S1024x1024.size (Rect.inb₂ (by decide) (by decide)))) b T) g be

/-- A quarter of the activation block read at (p, k): column `o + k` of row p. -/
theorem ld_cols (X : Vec Ideal S512x4096 .f32) (o : Nat) (inb : ∀ a, (![0, o] : Fin 2 → Nat) a + S512x1024.size a ≤ S512x4096.size a)
    (p : Fin 512) (k : Fin 1024) :
    View.ld (Val := Elt Ideal) X (Rect.unit (s := S512x4096) ![0, o] S512x1024.size inb) (ix2 p k)
      = X (ix2 p ⟨o + k.val, by have h1 : o + 1024 ≤ 4096 := inb 1; have := k.isLt; omega⟩) := by
  show X _ = X _
  congr 1
  funext a
  apply Fin.ext
  match a with
  | ⟨0, _⟩ => show 0 + 1 * p.val = p.val; omega
  | ⟨1, _⟩ => show o + 1 * k.val = o + k.val; omega

/-- A quarter of the weight read at (k, h): row `o + k`, column h. -/
theorem ld_rows (Wt : Vec Ideal S4096x1024 .bf16) (o : Nat) (inb : ∀ a, (![o, 0] : Fin 2 → Nat) a + S1024x1024.size a ≤ S4096x1024.size a)
    (k : Fin 1024) (h : Fin 1024) :
    View.ld (Val := Elt Ideal) Wt (Rect.unit (s := S4096x1024) ![o, 0] S1024x1024.size inb) (ix2 k h)
      = Wt (ix2 ⟨o + k.val, by have h1 : o + 1024 ≤ 4096 := inb 0; have := k.isLt; omega⟩ h) := by
  show Wt _ = Wt _
  congr 1
  funext a
  apply Fin.ext
  match a with
  | ⟨0, _⟩ => show o + 1 * k.val = o + k.val; omega
  | ⟨1, _⟩ => show 0 + 1 * h.val = h.val; omega

/-- One quarter's product of LOADED blocks at entry (p, h): columns `o + k` of the activation block against rows `o + k` of the weight. -/
theorem quarter_ld_apply (X : Vec Ideal S512x4096 .f32) (Wt : Vec Ideal S4096x1024 .bf16) (o : Nat)
    (inbX : ∀ a, (![0, o] : Fin 2 → Nat) a + S512x1024.size a ≤ S512x4096.size a)
    (inbW : ∀ a, (![o, 0] : Fin 2 → Nat) a + S1024x1024.size a ≤ S4096x1024.size a) (p : Fin 512) (h : Fin 1024) :
    quarter (F := Ideal) (View.ld (Val := Elt Ideal) X (Rect.unit (s := S512x4096) ![0, o] S512x1024.size inbX))
        (View.ld (Val := Elt Ideal) Wt (Rect.unit (s := S4096x1024) ![o, 0] S1024x1024.size inbW)) (ix2 p h)
      = ∑ k : Fin 1024, Ideal.sign (X (ix2 p ⟨o + k.val, by have h1 : o + 1024 ≤ 4096 := inbX 1; have := k.isLt; omega⟩))
          * Wt (ix2 ⟨o + k.val, by have h1 : o + 1024 ≤ 4096 := inbX 1; have := k.isLt; omega⟩ h) := by
  rw [quarter_apply]
  refine Finset.sum_congr rfl fun k _ => ?_
  rw [ld_cols X o inbX p k, ld_rows Wt o inbW k h]

/-- ENTRY (p, h) OF WHAT THE BODY STORES: the row normalisation, at h, of row p of
    (zero + the four quarters' sums of sign X(p, ·) · Wt(·, h'), in order) + b(h') + T(p, h'). -/
theorem whole_apply (X : Vec Ideal S512x4096 .f32) (Wt : Vec Ideal S4096x1024 .bf16) (T : Vec Ideal S512x1024 .f32)
    (b g be : Vec Ideal S1x1024 .f32) (p : Fin 512) (h : Fin 1024) :
    whole (F := Ideal) X Wt T b g be (ix2 p h)
      = Cert.Bridge.lnRow
          (fun h' => (((((Ideal.ofBits .f32 0x00000000#32 + ∑ k : Fin 1024, Ideal.sign (X (ix2 p ⟨0 + k.val, by have := k.isLt; omega⟩)) * Wt (ix2 ⟨0 + k.val, by have := k.isLt; omega⟩ h'))
              + ∑ k : Fin 1024, Ideal.sign (X (ix2 p ⟨1024 + k.val, by have := k.isLt; omega⟩)) * Wt (ix2 ⟨1024 + k.val, by have := k.isLt; omega⟩ h'))
              + ∑ k : Fin 1024, Ideal.sign (X (ix2 p ⟨2048 + k.val, by have := k.isLt; omega⟩)) * Wt (ix2 ⟨2048 + k.val, by have := k.isLt; omega⟩ h'))
              + ∑ k : Fin 1024, Ideal.sign (X (ix2 p ⟨3072 + k.val, by have := k.isLt; omega⟩)) * Wt (ix2 ⟨3072 + k.val, by have := k.isLt; omega⟩ h'))
              + b (ix2 (0 : Fin 1) h')) + T (ix2 p h'))
          (fun k => g (ix2 (0 : Fin 1) k)) (fun k => be (ix2 (0 : Fin 1) k)) h := by
  unfold whole
  rw [pay1_eq, normalised_apply]
  congr 1
  funext h'
  rw [pay3_eq, addf_apply, addf_apply, addf_apply, addf_apply, pay2_eq, addf_apply, addf_apply,
    quarter_ld_apply, quarter_ld_apply, quarter_ld_apply, quarter_ld_apply, underRows_apply, shapeCast_self, broadcast_apply]
  rfl

end Cert.KernelIdeal.Body

end
-- ==== Proof.Found.lean ====
/-
  What the body leaves in the output's staging buffer is the function `Body.whole` of the blocks it was given.

  The body's one store covers the whole 512 × 1024 staging buffer, so what the buffer holds afterwards is that store's
  value; its loads read the staging buffers of the inputs — the activation block by four rectangles of 1024 columns, the
  weight by four rectangles of 1024 rows, the others whole — so the stored value is the nest of the body's arithmetic
  over those rectangles of the blocks, which is how `Body.whole` is written.
-/
import proofs.«150808_j39376260170161_2_alg».proof.Proof.Gen.KernelIdeal.Frame
import proofs.«150808_j39376260170161_2_alg».proof.Proof.Body
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem zero_offsets : (![0, 0] : Fin 2 → Nat) = fun _ => 0 := funext fun a => by fin_cases a <;> rfl

/-- The staging buffer's contents after the body: the body's stored value, a function of the six input blocks. -/
theorem out_eq (c : Dev nD) (i : grid0.Coords) (a1 : Memref sig .tc .vmem S512x4096 .f32) (h1 : a1.IsWhole) (a2 : Memref sig .tc .vmem S4096x1024 .bf16) (h2 : a2.IsWhole) (a3 : Memref sig .tc .vmem S512x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole)
    (x0 : Vec F S512x4096 .f32) (x1 : Vec F S4096x1024 .bf16) (x2 : Vec F S512x1024 .f32) (x3 : Vec F S1x1024 .f32) (x4 : Vec F S1x1024 .f32) (x5 : Vec F S1x1024 .f32) :
    out0_A_6 c i a1 h1 a2 h2 a3 h3 a4 h4 a5 h5 a6 h6 a7 h7 x0 x1 x2 x3 x4 x5 = Body.whole x0 x1 x2 x3 x4 x5 := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  rw [View.canon_unit_zero zero_offsets]
  simp only [View.readAt_eq_ld, h1.read_unread, h2.read_unread, h3.read_unread, h4.read_unread, h5.read_unread, h6.read_unread,
    View.ld_unit_zero (S := S512x1024) zero_offsets, View.ld_unit_zero (S := S1x1024) zero_offsets]
  rfl

end Cert.KernelIdeal.Found

end
-- ==== Proof.Entry.lean ====
/-
  What the region finds, and what each window's block is.

  Before the region the host reshapes the activations [4, 2048, 4096] to [8192, 4096] (row 2048·b + s is row (b, s)),
  the residual likewise, and the bias, γ and β to one row each; and it builds the weight the kernel multiplies by:
  the transpose of |c| · q, where q(h, i) is the mean of |W(h, ·)| times sign W(h, i) — the same operations, on the same
  array, as the first eight of the reference, so q is named by the reference's own stage and never opened.
  At grid point t the activation, residual and output windows hold rows 512·t … 512·t + 511 of their arrays; the
  other four windows hold their whole arrays at every point.
-/
import proofs.«150808_j39376260170161_2_alg».proof.Proof.Gen.KernelIdeal.Frame
import proofs.«150808_j39376260170161_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ)

/-! ## The argument arrays, typed -/

abbrev a0 (c : Dev nD) : S4x2048x4096.Idx → EReal := m ((c : Thread nD τ).loc main_arg0)
abbrev a1 (c : Dev nD) : S4x2048x1024.Idx → EReal := m ((c : Thread nD τ).loc main_arg1)
abbrev a2 (c : Dev nD) : S1024x4096.Idx → EReal := m ((c : Thread nD τ).loc main_arg2)
abbrev a3 (c : Dev nD) : S1024.Idx → EReal := m ((c : Thread nD τ).loc main_arg3)
abbrev a4 (c : Dev nD) : S_.Idx → EReal := m ((c : Thread nD τ).loc main_arg4)
abbrev a5 (c : Dev nD) : S1024.Idx → EReal := m ((c : Thread nD τ).loc main_arg5)
abbrev a6 (c : Dev nD) : S1024.Idx → EReal := m ((c : Thread nD τ).loc main_arg6)

/-! ## The arrays as the region finds them -/

theorem V16 (c : Dev nD) : (V m c main_v16 : S8192x4096.Idx → EReal)
    = shapeCast S8192x4096 (a0 m c) shapeCasts_S4x2048x4096_S8192x4096 := by
  show StableHlo.after hostOps0 (fun b => m (c, b)) (Proc.devRef .tc main_v16) = _
  after_results
  rfl

theorem V17 (c : Dev nD) : (V m c main_v17 : S8192x1024.Idx → EReal)
    = shapeCast S8192x1024 (a1 m c) shapeCasts_S4x2048x1024_S8192x1024 := by
  show StableHlo.after hostOps0 (fun b => m (c, b)) (Proc.devRef .tc main_v17) = _
  after_results
  rfl

theorem V13 (c : Dev nD) : (V m c main_v13 : S1x1024.Idx → EReal) = shapeCast S1x1024 (a3 m c) shapeCasts_S1024_S1x1024 := by
  show StableHlo.after hostOps0 (fun b => m (c, b)) (Proc.devRef .tc main_v13) = _
  after_results
  rfl

theorem V14 (c : Dev nD) : (V m c main_v14 : S1x1024.Idx → EReal) = shapeCast S1x1024 (a5 m c) shapeCasts_S1024_S1x1024 := by
  show StableHlo.after hostOps0 (fun b => m (c, b)) (Proc.devRef .tc main_v14) = _
  after_results
  rfl

theorem V15 (c : Dev nD) : (V m c main_v15 : S1x1024.Idx → EReal) = shapeCast S1x1024 (a6 m c) shapeCasts_S1024_S1x1024 := by
  show StableHlo.after hostOps0 (fun b => m (c, b)) (Proc.devRef .tc main_v15) = _
  after_results
  rfl

/-- The weight the kernel multiplies by: the transpose of |c| · q, narrowed (the narrowing is the identity here). -/
theorem V12 (c : Dev nD) : (V m c main_v12 : S4096x1024.Idx → EReal)
    = (truncf (F := Ideal) .bf16 (transpose S4096x1024 [1, 0]
        (mulf (F := Ideal) (broadcastInDim S1024x4096 ![] bcast_S_S1024x4096 (Host.absf (F := Ideal) (a4 m c)))
          (Cert.ReferenceIdeal.Read.val_main_v7 (F := Ideal) (a2 m c)))
        transposes_S1024x4096_S4096x1024_1_0) bitsLt_bf16_f32 : FVec Ideal S4096x1024 .bf16) := by
  show StableHlo.after hostOps0 (fun b => m (c, b)) (Proc.devRef .tc main_v12) = _
  after_results
  rfl

/-! ## Read at an entry -/

theorem V16_apply (c : Dev nD) (bb : Fin 4) (ss : Fin 2048) (r : Fin 8192) (k : Fin 4096) (hr : r.val = 2048 * bb.val + ss.val) :
    V m c main_v16 (ix2 r k) = (a0 m c) (ix3 bb ss k) := by
  rw [V16]
  exact shapeCast_apply _ _ (ix2 r k) (ix3 bb ss k) (by
    rw [Shape.rowMajor_val_three, Shape.rowMajor_val_two]
    show (bb.val * 2048 + ss.val) * 4096 + k.val = r.val * 4096 + k.val
    rw [hr]; ring)

theorem V17_apply (c : Dev nD) (bb : Fin 4) (ss : Fin 2048) (r : Fin 8192) (h : Fin 1024) (hr : r.val = 2048 * bb.val + ss.val) :
    V m c main_v17 (ix2 r h) = (a1 m c) (ix3 bb ss h) := by
  rw [V17]
  exact shapeCast_apply _ _ (ix2 r h) (ix3 bb ss h) (by
    rw [Shape.rowMajor_val_three, Shape.rowMajor_val_two]
    show (bb.val * 2048 + ss.val) * 1024 + h.val = r.val * 1024 + h.val
    rw [hr]; ring)

theorem row_cast (x : S1024.Idx → EReal) (hc : S1024.ShapeCasts S1x1024) (h : Fin 1024) :
    shapeCast S1x1024 x hc (ix2 (0 : Fin 1) h) = x (ix1 h) :=
  shapeCast_apply _ _ (ix2 (0 : Fin 1) h) (ix1 h) (by
    rw [Shape.rowMajor_val_one, Shape.rowMajor_val_two]
    show h.val = 0 * 1024 + h.val
    omega)

theorem V13_apply (c : Dev nD) (h : Fin 1024) : V m c main_v13 (ix2 (0 : Fin 1) h) = (a3 m c) (ix1 h) := by
  rw [V13]; exact row_cast _ _ h
theorem V14_apply (c : Dev nD) (h : Fin 1024) : V m c main_v14 (ix2 (0 : Fin 1) h) = (a5 m c) (ix1 h) := by
  rw [V14]; exact row_cast _ _ h
theorem V15_apply (c : Dev nD) (h : Fin 1024) : V m c main_v15 (ix2 (0 : Fin 1) h) = (a6 m c) (ix1 h) := by
  rw [V15]; exact row_cast _ _ h

/-- The weight at (i, h): |c| · q(h, i). -/
theorem V12_apply (c : Dev nD) (i : Fin 4096) (h : Fin 1024) :
    V m c main_v12 (ix2 i h)
      = max ((a4 m c) ix0) (-((a4 m c) ix0)) * Cert.ReferenceIdeal.Read.val_main_v7 (F := Ideal) (a2 m c) (ix2 h i) := by
  rw [V12, truncf_apply, transpose_ix2_apply, mulf_apply,
    broadcastInDim_apply _ bcast_S_S1024x4096 _ (ix2 h i) ix0 (fun a => a.elim0)]
  rfl

/-! ## The windows' blocks -/

/-- The printed index maps over the sixteen grid points: windows 0, 2 and 6 are at row block t, the others at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 16 := lt_of_lt_of_eq t.isLt N_0

/-- Row p of grid point t's block is row 512·t + p of the array. -/
def row (t : Fin cfg0.N) (p : Fin 512) : Fin 8192 := ⟨512 * t.val + p.val, by have := point_lt t; have := p.isLt; omega⟩

theorem blk0_apply (c : Dev nD) (t : Fin cfg0.N) (p : Fin 512) (k : Fin 4096) :
    (iblk m c 0 t : Vec Ideal S512x4096 .f32) (ix2 p k) = V m c main_v16 (ix2 (row t p) k) := by
  obtain ⟨e0, e1, -⟩ := idx_facts t
  unfold iblk
  rw [View.read_apply]
  show V m c main_v16 _ = V m c main_v16 _
  congr 1
  funext a
  apply Fin.ext
  match a with
  | ⟨0, _⟩ => show win0_0.index t (0 : Fin 2) * 512 + 1 * p.val = 512 * t.val + p.val; omega
  | ⟨1, _⟩ => show win0_0.index t (1 : Fin 2) * 4096 + 1 * k.val = k.val; omega

theorem blk2_apply (c : Dev nD) (t : Fin cfg0.N) (p : Fin 512) (h : Fin 1024) :
    (iblk m c 2 t : Vec Ideal S512x1024 .f32) (ix2 p h) = V m c main_v17 (ix2 (row t p) h) := by
  obtain ⟨-, -, -, -, e0, e1, -⟩ := idx_facts t
  unfold iblk
  rw [View.read_apply]
  show V m c main_v17 _ = V m c main_v17 _
  congr 1
  funext a
  apply Fin.ext
  match a with
  | ⟨0, _⟩ => show win0_2.index t (0 : Fin 2) * 512 + 1 * p.val = 512 * t.val + p.val; omega
  | ⟨1, _⟩ => show win0_2.index t (1 : Fin 2) * 1024 + 1 * h.val = h.val; omega

theorem blk1_apply (c : Dev nD) (t : Fin cfg0.N) (i : Fin 4096) (h : Fin 1024) :
    (iblk m c 1 t : Vec Ideal S4096x1024 .bf16) (ix2 i h) = V m c main_v12 (ix2 i h) := by
  obtain ⟨-, -, e0, e1, -⟩ := idx_facts t
  unfold iblk
  rw [View.read_apply]
  show V m c main_v12 _ = V m c main_v12 _
  congr 1
  funext a
  apply Fin.ext
  match a with
  | ⟨0, _⟩ => show win0_1.index t (0 : Fin 2) * 4096 + 1 * i.val = i.val; omega
  | ⟨1, _⟩ => show win0_1.index t (1 : Fin 2) * 1024 + 1 * h.val = h.val; omega

theorem blk3_apply (c : Dev nD) (t : Fin cfg0.N) (h : Fin 1024) :
    (iblk m c 3 t : Vec Ideal S1x1024 .f32) (ix2 (0 : Fin 1) h) = V m c main_v13 (ix2 (0 : Fin 1) h) := by
  obtain ⟨-, -, -, -, -, -, e0, e1, -⟩ := idx_facts t
  unfold iblk
  rw [View.read_apply]
  show V m c main_v13 _ = V m c main_v13 _
  congr 1
  funext a
  apply Fin.ext
  match a with
  | ⟨0, _⟩ => show win0_3.index t (0 : Fin 2) * 1 + 1 * 0 = 0; omega
  | ⟨1, _⟩ => show win0_3.index t (1 : Fin 2) * 1024 + 1 * h.val = h.val; omega

theorem blk4_apply (c : Dev nD) (t : Fin cfg0.N) (h : Fin 1024) :
    (iblk m c 4 t : Vec Ideal S1x1024 .f32) (ix2 (0 : Fin 1) h) = V m c main_v14 (ix2 (0 : Fin 1) h) := by
  obtain ⟨-, -, -, -, -, -, -, -, e0, e1, -⟩ := idx_facts t
  unfold iblk
  rw [View.read_apply]
  show V m c main_v14 _ = V m c main_v14 _
  congr 1
  funext a
  apply Fin.ext
  match a with
  | ⟨0, _⟩ => show win0_4.index t (0 : Fin 2) * 1 + 1 * 0 = 0; omega
  | ⟨1, _⟩ => show win0_4.index t (1 : Fin 2) * 1024 + 1 * h.val = h.val; omega

theorem blk5_apply (c : Dev nD) (t : Fin cfg0.N) (h : Fin 1024) :
    (iblk m c 5 t : Vec Ideal S1x1024 .f32) (ix2 (0 : Fin 1) h) = V m c main_v15 (ix2 (0 : Fin 1) h) := by
  obtain ⟨-, -, -, -, -, -, -, -, -, -, e0, e1, -⟩ := idx_facts t
  unfold iblk
  rw [View.read_apply]
  show V m c main_v15 _ = V m c main_v15 _
  congr 1
  funext a
  apply Fin.ext
  match a with
  | ⟨0, _⟩ => show win0_5.index t (0 : Fin 2) * 1 + 1 * 0 = 0; omega
  | ⟨1, _⟩ => show win0_5.index t (1 : Fin 2) * 1024 + 1 * h.val = h.val; omega

end Cert.KernelIdeal.Entry

end
-- ==== Proof.RefRow.lean ====
/-
  The reference's result read entry by entry on the extended reals.

  Entry (b, s, h) of the reference's result is the row normalisation, at `h`, of the row  h' ↦ r(b, s, h'),  where
      r(b, s, h') = (Σᵢ  (c · (dᵢ + (sign dᵢ − dᵢ))) · (W(h', i) + (q(h', i) − W(h', i))))  +  bias(h')  +  T(b, s, h'),
  with  dᵢ = x(b, s, i) / c  the activation over the clip scalar, and  q(h', i)  the scaled sign of the weight (the mean
  of |W(h', ·)| times sign W(h', i)), kept here as the reference's own stage and never opened.
-/
import proofs.«150808_j39376260170161_2_alg».proof.Proof.Gen.ReferenceIdeal.Read
import proofs.«150808_j39376260170161_2_alg».proof.Proof.Scalar
import Idealize.ShloMosaic.Lib.ValueIdx

noncomputable section

open Idealize.ShloMosaic Idealize.ShloMosaic.ValueIdx
open scoped BigOperators

namespace Cert.ReferenceIdeal.Entries

open Cert.ReferenceIdeal Cert.ReferenceIdeal.Read

/-! ## The generated index maps, at an index given by its coordinates -/

section Indices
variable (b : Fin 4) (s : Fin 2048) (h : Fin 1024)

theorem i33 : idx_main_v33 (ix3 b s h) = ix3 b s (0 : Fin 1) := funext fun a => by
  match a with | ⟨0, _⟩ => rfl | ⟨1, _⟩ => rfl | ⟨2, _⟩ => rfl
theorem i38 : idx_main_v38 (ix3 b s h) = ix3 b s (0 : Fin 1) := funext fun a => by
  match a with | ⟨0, _⟩ => rfl | ⟨1, _⟩ => rfl | ⟨2, _⟩ => rfl
theorem i26 : idx_main_v26 (ix3 b s h) = ix3 b s (0 : Fin 1) := funext fun a => by
  match a with | ⟨0, _⟩ => rfl | ⟨1, _⟩ => rfl | ⟨2, _⟩ => rfl
theorem i30 : idx_main_v30 (ix3 b s (0 : Fin 1)) = ix2 b s := funext fun a => by
  match a with | ⟨0, _⟩ => rfl | ⟨1, _⟩ => rfl
theorem i23 : idx_main_v23 (ix3 b s (0 : Fin 1)) = ix2 b s := funext fun a => by
  match a with | ⟨0, _⟩ => rfl | ⟨1, _⟩ => rfl
theorem i29 (k : Fin 1024) : idx_main_v29 (ix2 b s) k = ix3 b s k := funext fun a => by
  match a with | ⟨0, _⟩ => rfl | ⟨1, _⟩ => rfl | ⟨2, _⟩ => rfl
theorem i22 (k : Fin 1024) : idx_main_v22 (ix2 b s) k = ix3 b s k := funext fun a => by
  match a with | ⟨0, _⟩ => rfl | ⟨1, _⟩ => rfl | ⟨2, _⟩ => rfl
theorem i41 : idx_main_v40 (idx_main_v41 (ix3 b s h)) = ix1 h := funext fun a => by
  match a with | ⟨0, _⟩ => rfl
theorem i44 : idx_main_v43 (idx_main_v44 (ix3 b s h)) = ix1 h := funext fun a => by
  match a with | ⟨0, _⟩ => rfl
theorem i19 : idx_main_v18 (idx_main_v19 (ix3 b s h)) = ix1 h := funext fun a => by
  match a with | ⟨0, _⟩ => rfl
theorem il17 (k : Fin 4096) : lidx_main_v17 (ix3 b s h) k = ix3 b s k := funext fun a => by
  match a with | ⟨0, _⟩ => rfl | ⟨1, _⟩ => rfl | ⟨2, _⟩ => rfl
theorem ir17 (k : Fin 4096) : ridx_main_v17 (ix3 b s h) k = ix2 h k := funext fun a => by
  match a with | ⟨0, _⟩ => rfl | ⟨1, _⟩ => rfl

end Indices

variable (x0 : (⟨S4x2048x4096, .f32⟩ : BufTy).Contents (Elt Ideal)) (x1 : (⟨S4x2048x1024, .f32⟩ : BufTy).Contents (Elt Ideal))
  (x2 : (⟨S1024x4096, .f32⟩ : BufTy).Contents (Elt Ideal)) (x3 : (⟨S1024, .f32⟩ : BufTy).Contents (Elt Ideal))
  (x4 : (⟨S_, .f32⟩ : BufTy).Contents (Elt Ideal)) (x5 x6 : (⟨S1024, .f32⟩ : BufTy).Contents (Elt Ideal))

/-- The row before normalisation, entry (b, s, h'): the contraction in the reference's spelling, plus the bias, plus the
    residual. -/
theorem row_apply (b : Fin 4) (s : Fin 2048) (h : Fin 1024) :
    val_main_v21 (F := Ideal) x0 x1 x2 x3 x4 (ix3 b s h)
      = (∑ k : Fin 4096,
            (x4 ix0 * (Ideal.div (x0 (ix3 b s k)) (x4 ix0)
              + (Ideal.sign (Ideal.div (x0 (ix3 b s k)) (x4 ix0)) - Ideal.div (x0 (ix3 b s k)) (x4 ix0))))
            * (x2 (ix2 h k) + (val_main_v7 (F := Ideal) x2 (ix2 h k) - x2 (ix2 h k))))
          + x3 (ix1 h) + x1 (ix3 b s h) := by
  rw [val_main_v21_apply, val_main_v20_apply, val_main_v17_apply, val_main_v19_apply, val_main_v18_apply, i19]
  simp only [il17, ir17, val_main_v16_apply, val_main_v15_apply, val_main_v14_apply, val_main_v13_apply, val_main_v12_apply,
    val_main_v11_apply, val_main_v10_apply, val_main_v9_apply, val_main_v8_apply,
    Ideal.addf_def, Ideal.subf_def, Ideal.mulf_def, Ideal.hostDivf_def, Ideal.hostUnary_sign_def]

/-- Entry (b, s, h) of the result: the row normalisation of row (b, s) at `h`. -/
theorem result_apply (b : Fin 4) (s : Fin 2048) (h : Fin 1024) :
    val_main_v45 (F := Ideal) x0 x1 x2 x3 x4 x5 x6 (ix3 b s h)
      = Cert.Bridge.lnRow (fun k => val_main_v21 (F := Ideal) x0 x1 x2 x3 x4 (ix3 b s k)) (fun k => x5 (ix1 k)) (fun k => x6 (ix1 k)) h := by
  rw [val_main_v45_apply, val_main_v44_apply, val_main_v43_apply, i44, val_main_v42_apply, val_main_v41_apply, val_main_v40_apply, i41,
    val_main_v39_apply, val_main_v34_apply, val_main_v33_apply, i33, val_main_v38_apply, i38, val_main_v37_apply, val_main_v36_apply,
    val_main_v35_apply, val_main_cst_5_apply, val_main_v32_apply, val_main_v31_apply, val_main_cst_4_apply, val_main_v30_apply, i30,
    val_main_v29_apply, val_main_cst_3_apply, val_main_v25_apply, val_main_v24_apply, val_main_cst_2_apply, val_main_v23_apply, i23,
    val_main_v22_apply, val_main_cst_1_apply]
  simp only [i29, i22, val_main_v28_apply, val_main_v27_apply, val_main_v26_apply, i26, val_main_v25_apply, val_main_v24_apply,
    val_main_cst_2_apply, val_main_v23_apply, i23, val_main_v22_apply, val_main_cst_1_apply,
    Ideal.addf_def, Ideal.subf_def, Ideal.mulf_def, Ideal.hostDivf_def, Ideal.hostUnary_rsqrt_def, Ideal.ofBits_def,
    Ideal.ofBits_zero_f32, zero_add]
  rfl

end Cert.ReferenceIdeal.Entries

end
-- ==== Proof.Join.lean ====
/-
  The two programs meet, entry by entry.

  Suppose the blocks the kernel's body is given read the argument arrays as the pipeline delivers them: row p of the
  activation block is row (b, s) of the activations; the weight block at (i, h) is |c| · q(h, i), the clip scalar's
  absolute value times the reference's scaled sign of the weight; row p of the residual block is row (b, s) of the
  residual; and the three rows are the bias, γ and β.  Suppose also that the activations of that row, the clip scalar and
  the weights are finite.  Then entry (p, h) of what the body stores is entry (b, s, h) of the reference's result:
  both are the row normalisation of rows that agree entry by entry, because each term of the reference's contraction
  equals the kernel's (the quantised-activation law and the straight-through cancellation) and the reference's one sum
  over 4096 indices is the kernel's four quarter sums added in order.
-/
import proofs.«150808_j39376260170161_2_alg».proof.Proof.Body
import proofs.«150808_j39376260170161_2_alg».proof.Proof.RefRow

noncomputable section

open Idealize.ShloMosaic Idealize.ShloMosaic.ValueIdx
open scoped BigOperators

namespace Cert.Join

theorem entry_eq
    (x0 : (⟨Cert.ReferenceIdeal.S4x2048x4096, .f32⟩ : BufTy).Contents (Elt Ideal)) (x1 : (⟨Cert.ReferenceIdeal.S4x2048x1024, .f32⟩ : BufTy).Contents (Elt Ideal))
    (x2 : (⟨Cert.ReferenceIdeal.S1024x4096, .f32⟩ : BufTy).Contents (Elt Ideal)) (x3 : (⟨Cert.ReferenceIdeal.S1024, .f32⟩ : BufTy).Contents (Elt Ideal))
    (x4 : (⟨Cert.ReferenceIdeal.S_, .f32⟩ : BufTy).Contents (Elt Ideal)) (x5 x6 : (⟨Cert.ReferenceIdeal.S1024, .f32⟩ : BufTy).Contents (Elt Ideal))
    (X : Vec Ideal Cert.KernelIdeal.S512x4096 .f32) (Wt : Vec Ideal Cert.KernelIdeal.S4096x1024 .bf16) (T : Vec Ideal Cert.KernelIdeal.S512x1024 .f32)
    (b g be : Vec Ideal Cert.KernelIdeal.S1x1024 .f32)
    (bb : Fin 4) (ss : Fin 2048) (p : Fin 512)
    (hX : ∀ k : Fin 4096, X (ix2 p k) = x0 (ix3 bb ss k))
    (hW : ∀ (i : Fin 4096) (h : Fin 1024),
      Wt (ix2 i h) = max (x4 ix0) (-(x4 ix0)) * Cert.ReferenceIdeal.Read.val_main_v7 (F := Ideal) x2 (ix2 h i))
    (hT : ∀ h : Fin 1024, T (ix2 p h) = x1 (ix3 bb ss h))
    (hb : ∀ h : Fin 1024, b (ix2 (0 : Fin 1) h) = x3 (ix1 h))
    (hg : ∀ h : Fin 1024, g (ix2 (0 : Fin 1) h) = x5 (ix1 h))
    (hbe : ∀ h : Fin 1024, be (ix2 (0 : Fin 1) h) = x6 (ix1 h))
    (fx : ∀ k : Fin 4096, ∃ r : ℝ, x0 (ix3 bb ss k) = (r : EReal))
    (fc : ∃ r : ℝ, x4 ix0 = (r : EReal))
    (fw : ∀ (h : Fin 1024) (i : Fin 4096), ∃ r : ℝ, x2 (ix2 h i) = (r : EReal))
    (h : Fin 1024) :
    Cert.KernelIdeal.Body.whole (F := Ideal) X Wt T b g be (ix2 p h)
      = Cert.ReferenceIdeal.Read.val_main_v45 (F := Ideal) x0 x1 x2 x3 x4 x5 x6 (ix3 bb ss h) := by
  rw [Cert.KernelIdeal.Body.whole_apply, Cert.ReferenceIdeal.Entries.result_apply]
  simp only [hg, hbe]
  refine congrArg (fun r => Cert.Bridge.lnRow r _ _ h) (funext fun h' => ?_)
  rw [Cert.ReferenceIdeal.Entries.row_apply, hb, hT, Ideal.ofBits_zero_f32]
  congr 2
  obtain ⟨cr, hc⟩ := fc
  -- one term of the kernel's contraction is the reference's term at the same index
  have tk : ∀ i : Fin 4096, Ideal.sign (X (ix2 p i)) * Wt (ix2 i h')
      = (x4 ix0 * (Ideal.div (x0 (ix3 bb ss i)) (x4 ix0) + (Ideal.sign (Ideal.div (x0 (ix3 bb ss i)) (x4 ix0)) - Ideal.div (x0 (ix3 bb ss i)) (x4 ix0)))) * (x2 (ix2 h' i) + (Cert.ReferenceIdeal.Read.val_main_v7 (F := Ideal) x2 (ix2 h' i) - x2 (ix2 h' i))) := by
    intro i
    obtain ⟨xr, hx⟩ := fx i
    obtain ⟨wr, hw⟩ := fw h' i
    rw [hX, hW, hx, hc, hw]
    exact (Cert.Bridge.term_eq xr cr wr _).symm
  simp only [tk]
  exact (Cert.Bridge.sum_quarters
    (fun i : Fin 4096 => (x4 ix0 * (Ideal.div (x0 (ix3 bb ss i)) (x4 ix0) + (Ideal.sign (Ideal.div (x0 (ix3 bb ss i)) (x4 ix0)) - Ideal.div (x0 (ix3 bb ss i)) (x4 ix0)))) * (x2 (ix2 h' i) + (Cert.ReferenceIdeal.Read.val_main_v7 (F := Ideal) x2 (ix2 h' i) - x2 (ix2 h' i))))
    (fun (a : Fin 4) (k : Fin 1024) =>
      (fun i : Fin 4096 => (x4 ix0 * (Ideal.div (x0 (ix3 bb ss i)) (x4 ix0) + (Ideal.sign (Ideal.div (x0 (ix3 bb ss i)) (x4 ix0)) - Ideal.div (x0 (ix3 bb ss i)) (x4 ix0)))) * (x2 (ix2 h' i) + (Cert.ReferenceIdeal.Read.val_main_v7 (F := Ideal) x2 (ix2 h' i) - x2 (ix2 h' i))))
        ⟨1024 * a.val + k.val, by have := a.isLt; have := k.isLt; omega⟩)
    (fun _ _ => rfl)).symm

end Cert.Join

end
-- ==== Proof.Result.lean ====
/-
  The kernel's result array is the reference's function of the arguments.

  Grid point t writes back rows 512·t … 512·t + 511 of the [8192, 1024] output array, and its entry (p, h) is the
  reference's result at (b, s, h) where 2048·b + s = 512·t + p (the join, entry by entry, with each block read where
  the pipeline delivers it).  So every point's block is a block of ONE function of the whole array, `flat`: row r holds
  the reference's row (r / 2048, r mod 2048).  The sixteen blocks tile the array, so after the run the array is `flat`;
  and the final reshape to [4, 2048, 1024] reads row 2048·b + s at (b, s): the reference's result.
-/
import proofs.«150808_j39376260170161_2_alg».proof.Proof.Found
import proofs.«150808_j39376260170161_2_alg».proof.Proof.Entry
import proofs.«150808_j39376260170161_2_alg».proof.Proof.Join
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The reference's result, as a function of this memory's argument arrays on core c. -/
def refOut (c : Dev nD) : S4x2048x1024.Idx → EReal :=
  Cert.ReferenceIdeal.Read.val_main_v45 (F := Ideal) (Entry.a0 m c) (Entry.a1 m c) (Entry.a2 m c) (Entry.a3 m c) (Entry.a4 m c) (Entry.a5 m c) (Entry.a6 m c)

/-- The same laid out as [8192, 1024]: row r is the reference's row (r / 2048, r mod 2048). -/
def flat (c : Dev nD) : S8192x1024.Idx → EReal := fun j =>
  refOut m c (ix3 ⟨(j 0).val / 2048, by have := idx2_lt0 j; omega⟩ ⟨(j 0).val % 2048, Nat.mod_lt _ (by decide)⟩ (j 1))

/-- The finiteness the join needs, of this memory: the activations, the weights and the clip scalar are real. -/
structure FiniteArgs : Prop where
  act : ∀ (c : Dev nD) (i : S4x2048x4096.Idx), ∃ r : ℝ, Entry.a0 m c i = (r : EReal)
  wgt : ∀ (c : Dev nD) (i : S1024x4096.Idx), ∃ r : ℝ, Entry.a2 m c i = (r : EReal)
  clip : ∀ c : Dev nD, ∃ r : ℝ, Entry.a4 m c ix0 = (r : EReal)

/-- Entry (p, h) of what grid point t's body stores is `flat` at row 512·t + p, column h. -/
theorem point_entry (fin : FiniteArgs m) (c : Dev nD) (t : Fin cfg0.N) (p : Fin 512) (h : Fin 1024) :
    Body.whole (F := Ideal) (iblk m c 0 t) (iblk m c 1 t) (iblk m c 2 t) (iblk m c 3 t) (iblk m c 4 t) (iblk m c 5 t) (ix2 p h)
      = flat m c (ix2 (Entry.row t p) h) := by
  have hr : (Entry.row t p).val = 2048 * ((Entry.row t p).val / 2048) + (Entry.row t p).val % 2048 :=
    (Nat.div_add_mod _ 2048).symm
  have hlt : (Entry.row t p).val / 2048 < 4 := by have := (Entry.row t p).isLt; omega
  exact Cert.Join.entry_eq (Entry.a0 m c) (Entry.a1 m c) (Entry.a2 m c) (Entry.a3 m c) (Entry.a4 m c) (Entry.a5 m c) (Entry.a6 m c)
    (iblk m c 0 t) (iblk m c 1 t) (iblk m c 2 t) (iblk m c 3 t) (iblk m c 4 t) (iblk m c 5 t)
    ⟨(Entry.row t p).val / 2048, hlt⟩ ⟨(Entry.row t p).val % 2048, Nat.mod_lt _ (by decide)⟩ p
    (fun k => (Entry.blk0_apply m c t p k).trans (Entry.V16_apply m c _ _ (Entry.row t p) k hr))
    (fun i h' => (Entry.blk1_apply m c t i h').trans (Entry.V12_apply m c i h'))
    (fun h' => (Entry.blk2_apply m c t p h').trans (Entry.V17_apply m c _ _ (Entry.row t p) h' hr))
    (fun h' => (Entry.blk3_apply m c t h').trans (Entry.V13_apply m c h'))
    (fun h' => (Entry.blk4_apply m c t h').trans (Entry.V14_apply m c h'))
    (fun h' => (Entry.blk5_apply m c t h').trans (Entry.V15_apply m c h'))
    (fun k => fin.act c _) (fin.clip c) (fun h' i => fin.wgt c _) h

/-- WHAT POINT t WRITES BACK is block t of `flat`. -/
theorem flushed_eq (fin : FiniteArgs m) (c : Dev nD) (t : Fin cfg0.N) :
    (dats m 0 c).flushed 6 t = ((cfg0.win 6).blk t).view.read (Elt Ideal) (flat m c) := by
  show (cfg0.win 6).cut (grid0.coords t) ((dats m 0 c).after 6 t) = _
  rw [after0_6]
  unfold outsAt0
  rw [Found.out_eq]
  obtain ⟨-, -, -, -, -, -, -, -, -, -, -, -, e0, e1⟩ := Entry.idx_facts t
  refine funext fun j => ?_
  show Body.whole (F := Ideal) (iblk m c 0 t) (iblk m c 1 t) (iblk m c 2 t) (iblk m c 3 t) (iblk m c 4 t) (iblk m c 5 t) j
    = flat m c (((cfg0.win 6).blk t).view.emb j)
  have hj := eq_ix2 (n0 := 512) (n1 := 1024) j
  have key := point_entry m fin c t (j 0) (j 1)
  have step : Body.whole (F := Ideal) (iblk m c 0 t) (iblk m c 1 t) (iblk m c 2 t) (iblk m c 3 t) (iblk m c 4 t) (iblk m c 5 t) j
      = Body.whole (F := Ideal) (iblk m c 0 t) (iblk m c 1 t) (iblk m c 2 t) (iblk m c 3 t) (iblk m c 4 t) (iblk m c 5 t) (ix2 (j 0) (j 1)) :=
    congrArg _ hj
  refine (step.trans key).trans (congrArg (flat m c) ?_)
  funext a
  apply Fin.ext
  match a with
  | ⟨0, _⟩ => show 512 * t.val + (j 0).val = win0_6.index t (0 : Fin 2) * 512 + 1 * (j 0).val; omega
  | ⟨1, _⟩ => show (j 1).val = win0_6.index t (1 : Fin 2) * 1024 + 1 * (j 1).val; omega

/-- An index of the array is in point t's block iff each coordinate is in the block's range on its axis. -/
theorem mem_blk (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v18).slice (win0_6.rect t)).set ↔ _
  rw [View.set_slice_whole, Rect.mem_set_unit]
  exact Iff.rfl

/-- THE ARRAY after the run is `flat`: row r lies in the block of point r / 512. -/
theorem final (fin : FiniteArgs m) (c : Dev nD) : (dats m 0 c).arrAt 6 cfg0.N = flat m c :=
  (dats m 0 c).arrAt_eq_of_cover 6 (flat m c) (fun t _ => flushed_eq m fin c t) fun i => by
    have hi0 : (i 0).val < 8192 := idx2_lt0 i
    have hi1 : (i 1).val < 1024 := idx2_lt1 i
    have hN : cfg0.N = 16 := N_0
    refine ⟨⟨(i 0).val / 512, by rw [hN]; omega⟩, flush0_6 _, ?_⟩
    obtain ⟨-, -, -, -, -, -, -, -, -, -, -, -, e0, e1⟩ := Entry.idx_facts ⟨(i 0).val / 512, by rw [hN]; omega⟩
    rw [mem_blk]
    intro a
    match a with
    | ⟨0, _⟩ =>
      show win0_6.index _ (0 : Fin 2) * 512 ≤ (i 0).val ∧ (i 0).val < win0_6.index _ (0 : Fin 2) * 512 + 512
      rw [e0]
      show (i 0).val / 512 * 512 ≤ (i 0).val ∧ (i 0).val < (i 0).val / 512 * 512 + 512
      omega
    | ⟨1, _⟩ =>
      show win0_6.index _ (1 : Fin 2) * 1024 ≤ (i 1).val ∧ (i 1).val < win0_6.index _ (1 : Fin 2) * 1024 + 1024
      rw [e1]
      omega

/-- Row 2048·b + s of `flat`, read through the final reshape at (b, s, h), is the reference's result there. -/
theorem reshape_flat (c : Dev nD) (hc : S8192x1024.ShapeCasts S4x2048x1024) :
    shapeCast S4x2048x1024 (flat m c) hc = refOut m c := by
  funext i
  have h0 : (i 0).val < 4 := (i 0).isLt
  have h1 : (i 1).val < 2048 := (i 1).isLt
  rw [shapeCast_apply (flat m c) hc i (ix2 (⟨2048 * (i 0).val + (i 1).val, by omega⟩ : Fin 8192) (i 2)) (by
    rw [Shape.rowMajor_val_two, Shape.rowMajor_val_three]
    show (2048 * (i 0).val + (i 1).val) * 1024 + (i 2).val = ((i 0).val * 2048 + (i 1).val) * 1024 + (i 2).val
    ring)]
  unfold flat
  refine congrArg (refOut m c) (funext fun a => Fin.ext ?_)
  match a with
  | ⟨0, _⟩ => show (2048 * (i 0).val + (i 1).val) / 2048 = (i 0).val; omega
  | ⟨1, _⟩ => show (2048 * (i 0).val + (i 1).val) % 2048 = (i 1).val; omega
  | ⟨2, _⟩ => rfl

/-- THE HOST TAIL: the program's result, the reshape of the region's output array, is the reference's result. -/
theorem tail_eq (fin : FiniteArgs m) (c : Dev nD) :
    (Pipeline.afterTail₀ cfgs (dats m) 0 (V0 m) [hostOps1] c main_v19 : S4x2048x1024.Idx → EReal) = refOut m c := by
  have hw : Pipeline.withArrays (cfgs 0).spec c (V0 m c) (fun w => (dats m 0 c).arrAt w (cfgs 0).N) (Proc.devRef .tc main_v18)
      = flat m c :=
    (Pipeline.withArrays_arr spec0 launch0.win.arr_inj c _ _ 6).trans (final m fin c)
  unfold Pipeline.afterTail₀
  show StableHlo.after hostOps1 _ (Proc.devRef .tc main_v19) = _
  after_results
  show shapeCast S4x2048x1024
      (Pipeline.withArrays (cfgs 0).spec c (V0 m c) (fun w => (dats m 0 c).arrAt w (cfgs 0).N) (Proc.devRef .tc main_v18))
      shapeCasts_S8192x1024_S4x2048x1024 = _
  rw [hw]
  exact reshape_flat m c _

/-- THE RUN, READ: every weakly fair execution of the idealized kernel's program ends with its result at the reference's
    function of the argument arrays, and the arguments unchanged. -/
theorem run (fin : FiniteArgs m) : θ_run defs (onTc (τ := τ) (main (F := Ideal))) ⟨m, fun _ => 0, ρ⟩ fun r => ∀ c : Dev nD,
      r.2.mem ((c : Thread nD τ).loc main_v19) = refOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v19 (Pipeline.mem_restRefs_of main_v19 (by decide) (by decide))).trans (tail_eq m fin c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.Finite.lean ====
/-
  What the precondition gives: the activations, the clip scalar and the weights are finite.

  The precondition is the conjunction, over the seven argument arrays, of "every entry's absolute value is below +∞".
  An extended real whose absolute value `max x (−x)` is below +∞ is neither +∞ nor −∞, so it is a real number.
  Only three of the seven conjuncts are used: the law that joins the two programs needs the activations, the clip
  scalar and the weights finite, and nothing of the bias, the residual, γ or β.
-/
import proofs.«150808_j39376260170161_2_alg».proof.Pre_finite_inputs
import proofs.«150808_j39376260170161_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Finite

open Cert.Pre_finite_inputs

variable [Cert.Pre_finite_inputs.Facts]

instance : Subsingleton S_.Idx := ⟨fun a b => funext fun d => d.elim0⟩

/-- The float pattern `0x7F800000` is +∞. -/
theorem inf_pattern : Ideal.ofBits .f32 0x7F800000#32 = (⊤ : EReal) := by simp [Ideal.ofBits, Ideal.ieee]

/-- An extended real whose absolute value compares below +∞ is a real. -/
theorem real_of_abs_lt_inf (x : EReal) (h : Ideal.cmp .olt (max x (-x)) (Ideal.ofBits .f32 0x7F800000#32) = 1#1) :
    ∃ r : ℝ, x = (r : EReal) := by
  rw [inf_pattern] at h
  induction x using EReal.rec with
  | bot => simp [Ideal.cmp] at h
  | top => simp [Ideal.cmp] at h
  | coe r => exact ⟨r, rfl⟩

/-- One conjunct: if "all of |a| < +∞" evaluates to true, every entry of `a` is a real. -/
theorem entries_real {s : Shape} (a : FVec Ideal s .f32) (dims : Fin S_.rank → Fin s.rank) (hb : S_.BroadcastsInDim s dims)
    {axes : List (Fin s.rank)} (hr : s.ReducesTo axes S_) (hu : 0 < S_.numel)
    (e : Host.reduce IntOp.andi (cmpf .olt (Host.absf a) (broadcastInDim s dims hb (constant (F := Ideal) S_ .f32 0x7F800000#32)))
      (constantI S_ 1 1#1) hr hu ix0 = 1#1) (i : s.Idx) : ∃ r : ℝ, a i = (r : EReal) := by
  have hi := Host.reduce_andi_all _ _ hr hu ix0 e i
  refine real_of_abs_lt_inf (a i) ?_
  rw [← hi]
  show _ = Ideal.cmp .olt (max (a i) (-(a i))) (broadcastInDim s dims hb (constant (F := Ideal) S_ .f32 0x7F800000#32) i)
  rw [broadcastInDim_apply dims hb _ i ix0 (fun d => d.elim0)]
  rfl

/-- THE PRECONDITION DECODED: the activations, the weights and the clip scalar are real. -/
theorem of_pre (a0 : FVec Ideal S4x2048x4096 .f32) (a1 : FVec Ideal S4x2048x1024 .f32) (a2 : FVec Ideal S1024x4096 .f32)
    (a3 : FVec Ideal S1024 .f32) (a4 : FVec Ideal S_ .f32) (a5 a6 : FVec Ideal S1024 .f32)
    (h : fn (F := Ideal) a0 a1 a2 a3 a4 a5 a6 = (fun _ => 1#1)) :
    (∀ i, ∃ r : ℝ, a0 i = (r : EReal)) ∧ (∀ i, ∃ r : ℝ, a2 i = (r : EReal)) ∧ (∃ r : ℝ, a4 ix0 = (r : EReal)) := by
  have e := congrFun h ix0
  dsimp only [fn, fn_part1] at e
  obtain ⟨e5, -⟩ := IntOp.andi_eq_one.mp e
  obtain ⟨e4, -⟩ := IntOp.andi_eq_one.mp e5
  obtain ⟨e3, h4⟩ := IntOp.andi_eq_one.mp e4
  obtain ⟨e2, -⟩ := IntOp.andi_eq_one.mp e3
  obtain ⟨e1, h2⟩ := IntOp.andi_eq_one.mp e2
  obtain ⟨h0, -⟩ := IntOp.andi_eq_one.mp e1
  refine ⟨fun i => entries_real a0 _ _ _ _ h0 i, fun i => entries_real a2 _ _ _ _ h2 i, ?_⟩
  -- the scalar: its comparison is against the constant itself, with no broadcast
  have hi := Host.reduce_andi_all _ _ _ _ ix0 h4 ix0
  exact real_of_abs_lt_inf (a4 ix0) hi

end Cert.Finite

end
-- ==== Proof.lean ====
/-
  A dense layer over sign-quantised activations and weights, with bias, residual and layer normalisation
  (activations [4, 2048, 4096], weight [1024, 4096], a scalar clip value c), as a tiled kernel and as a plain reference:
  the two agree on the extended reals for all finite inputs.

  THE REFERENCE quantises the activations as  c · (s + (sign s − s))  with  s = x / c  (a straight-through form around
  sign), the weights as  W + (q − W)  with  q(h, i) = mean|W(h, ·)| · sign W(h, i),  contracts the two over the 4096
  inner indices, adds the bias and the residual, and normalises each row of 1024: centred at its mean, scaled by the
  reciprocal square root of its variance plus an epsilon, then by γ, shifted by β.

  THE KERNEL folds |c| into the weight on the host — it multiplies by the transpose of |c| · q — and in its body takes
  sign x directly, for a block of 512 rows at a time, accumulating the contraction from zero over four quarters of 1024
  inner indices; then the same bias, residual and row normalisation.

  WHY THEY AGREE.  For finite x, c, W each term of the contraction agrees:
      (c · (s + (sign s − s))) · (W + (q − W))  =  sign x · (|c| · q).
  Off c = 0 the quotient s is real, s + (sign s − s) = sign s, and c · sign (x / c) = |c| · sign x; at c = 0 both sides are
  0 · _ = 0, whatever the quotient by zero is; and w + (q − w) = q for a real w and ANY extended real q.  A sum over 4096
  indices is the sum of its four consecutive quarters added in order from zero (addition of extended reals is
  commutative and associative), so the rows before normalisation agree entry by entry, and the normalisation is the same
  function of a row on both sides.  Finiteness is used for the activations, the clip value and the weights only.

  WHERE EACH PART IS.  Scalar: the laws above.  Body: the body's arithmetic read entry by entry.  RefRow: the reference
  read entry by entry.  Join: the two meet at an entry, given how the blocks read the arrays.  Found: what the body leaves
  in the output's staging buffer.  Entry: what the region finds and what each window's block is.  Result: every grid
  point writes back a block of one whole-array function, the blocks tile the array, and the final reshape gives the
  reference's result.  Finite: the precondition decoded.  The idealization rewrote the four reads of the sign bit (one
  per quarter) into comparisons with zero: `preserves`, the rule's own statement four times.
-/
import proofs.«150808_j39376260170161_2_alg».proof.Defs
import proofs.«150808_j39376260170161_2_alg».proof.Proof.Gen.Kernel
import proofs.«150808_j39376260170161_2_alg».proof.Proof.Gen.Kernel.Skeleton
import proofs.«150808_j39376260170161_2_alg».proof.Proof.Gen.Kernel.Launch
import proofs.«150808_j39376260170161_2_alg».proof.Proof.Gen.Kernel.Points
import proofs.«150808_j39376260170161_2_alg».proof.Proof.Gen.Kernel.Frame
import proofs.«150808_j39376260170161_2_alg».proof.Proof.Gen.KernelIdeal
import proofs.«150808_j39376260170161_2_alg».proof.Proof.Gen.KernelIdeal.Skeleton
import proofs.«150808_j39376260170161_2_alg».proof.Proof.Gen.KernelIdeal.Launch
import proofs.«150808_j39376260170161_2_alg».proof.Proof.Gen.KernelIdeal.Points
import proofs.«150808_j39376260170161_2_alg».proof.Proof.Gen.KernelIdeal.Frame
import proofs.«150808_j39376260170161_2_alg».proof.Proof.Gen.ReferenceIdeal
import proofs.«150808_j39376260170161_2_alg».proof.Proof.Gen.ReferenceIdeal.Run
import proofs.«150808_j39376260170161_2_alg».proof.Proof.Gen.ReferenceIdeal.Read
import proofs.«150808_j39376260170161_2_alg».proof.Proof.Gen.Pre_finite_inputs
import proofs.«150808_j39376260170161_2_alg».proof.Proof.Result
import proofs.«150808_j39376260170161_2_alg».proof.Proof.Finite
import Idealize.ShloMosaic.Adequacy
import Idealize.ShloMosaic.Init

noncomputable section

namespace Cert.Proof

open Idealize.ShloMosaic Idealize.ShloMosaic.TcCoe Idealize.SL.Sem

/-! ## The three programs run, and leave their arguments unchanged -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-! ## The idealization: four reads of a sign bit, each the rule's statement at [512, 1024] and f32 -/

theorem preserves : Cert.preserves_Kernel_KernelIdeal :=
  ⟨IdealRules.sign_bit.statement Cert.KernelIdeal.S512x1024 .f32, IdealRules.sign_bit.statement Cert.KernelIdeal.S512x1024 .f32,
    IdealRules.sign_bit.statement Cert.KernelIdeal.S512x1024 .f32, IdealRules.sign_bit.statement Cert.KernelIdeal.S512x1024 .f32⟩

/-! ## The two idealized programs end with equal results -/

/-- Under the precondition the activations, the weights and the clip value of the kernel's memory are real. -/
theorem finite_args (m : (ℓ : Loc Cert.KernelIdeal.nD Cert.KernelIdeal.τ Cert.KernelIdeal.sig) → Buf (Elt Ideal) ℓ)
    (hpre : Cert.Pre_KernelIdeal m) : Cert.KernelIdeal.Result.FiniteArgs m :=
  ⟨fun c i => (Cert.Finite.of_pre _ _ _ _ _ _ _ (hpre c)).1 i,
    fun c i => (Cert.Finite.of_pre _ _ _ _ _ _ _ (hpre c)).2.1 i,
    fun c => (Cert.Finite.of_pre _ _ _ _ _ _ _ (hpre c)).2.2⟩

/-- The kernel's result ends at the reference's function of ITS arguments (the run, read); the reference's at that
    function of arguments that agree. -/
theorem algebraic : Cert.algebraic_KernelIdeal_ReferenceIdeal := by
  intro m ρ m' ρ' hpre hagree
  refine ⟨fun c => Cert.KernelIdeal.Result.refOut m c, Cert.KernelIdeal.Result.run m ρ (finite_args m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
